-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S8x1024x512 : Shape := ⟨3, ![8, 1024, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_

variable [Facts]

def fn {F : FTy → Type} [FloatOps F] (main_arg0 : FVec F S8x8192x512 .f32) (main_arg1 : FVec F S8x1024x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x1024x512 .f32 := Host.absf main_arg1
  let main_cst_0 : FVec F S_ .f32 := constant S_ .f32 0x7F800000#32
  let main_v5 : FVec F S8x1024x512 .f32 := broadcastInDim S8x1024x512 ![] bcast_S_S8x1024x512 main_cst_0
  let main_v6 : IVec S8x1024x512 1 := cmpf .olt main_v4 main_v5
  let main_c_1 : IVec S_ 1 := constantI S_ 1 1#1
  let main_v7 : IVec S_ 1 := (fun x v => Host.reduce IntOp.andi x v reducesTo_S8x1024x512_S_d0_1_2 h_S_) main_v6 main_c_1
  let main_v8 : IVec S_ 1 := andi main_v3 main_v7
  main_v8
-- ==== Kernel.lean ====
abbrev S8x8192x512 : Shape := ⟨3, ![8, 8192, 512]⟩
abbrev S8x1024x512 : Shape := ⟨3, ![8, 1024, 512]⟩
abbrev S8x512x1024 : Shape := ⟨3, ![8, 512, 1024]⟩
abbrev S8x1024x1024 : Shape := ⟨3, ![8, 1024, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8x8192x512, .f32⟩
  | .hbm, ⟨1, _⟩ => ⟨S8x1024x512, .f32⟩
  | .hbm, ⟨2, _⟩ => ⟨S8x512x1024, .f32⟩
  | .hbm, ⟨3, _⟩ => ⟨S8x512x1024, .bf16⟩
  | .hbm, ⟨4, _⟩ => ⟨S8x1024x1024, .f32⟩
  | .local _ .vmem, ⟨0, _⟩ => ⟨S1x1024x512, .f32⟩
  | .local _ .vmem, ⟨1, _⟩ => ⟨S1x1024x512, .f32⟩
  | .local _ .vmem, ⟨2, _⟩ => ⟨S8x512x1024, .bf16⟩
  | .local _ .vmem, ⟨3, _⟩ => ⟨S1x1024x1024, .f32⟩
  | .local _ .vmem, ⟨4, _⟩ => ⟨S1x1024x1024, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let v3 : Index := Scalar.indexCast arg1
  let c0_2 : Index := 0#32
  let c0_3 : Index := 0#32
  ![v3.toNat, 0, 0]
def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_4 : BitVec 32 := 0#32
  let v9 : BitVec 1 := Scalar.cmpi .ne v8 c0_i32_4
  v9

def k0_cond2 (i : grid0.Coords) : BitVec 1 :=
  let arg1 : BitVec 32 := BitVec.ofNat 32 (i 1).val
  let c0_i32_5 : BitVec 32 := 0#32
  let v10 : BitVec 1 := Scalar.cmpi .ne arg1 c0_i32_5
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8x1024x512_S8x512x1024_0_2_1 : S8x1024x512.Transposes [0, 2, 1] S8x512x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x512_S512x1024_S1024x1024_1_0_0_1_n_n_wf : DotDims.WF S1024x512 S512x1024 S1024x1024 [1] [0] [0] [1] [] []
  hrank0 : 0 < grid0.rank
  k0_off1_inb : ∀ i : grid0.Coords, ∀ a, (k0_off1 i) a + S1x512x1024.size a ≤ S8x512x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x8192x512.size a
  hwx0_0 : ∀ i : grid0.Coords, EltTy.bits .f32 = 32 ∨ (Rect.block (s := S8x8192x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x1024.size a ≤ S8x512x1024.size a
  hwx0_1 : ∀ i : grid0.Coords, EltTy.bits .bf16 = 32 ∨ (Rect.block (s := S8x512x1024) S8x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8x8192x512 : Shape := ⟨3, ![8, 8192, 512]⟩
abbrev S8x1024x512 : Shape := ⟨3, ![8, 1024, 512]⟩
abbrev S8x8192x1024 : Shape := ⟨3, ![8, 8192, 1024]⟩
abbrev S8x8x1024x1024 : Shape := ⟨4, ![8, 8, 1024, 1024]⟩
abbrev S_ : Shape := ⟨0, ![]⟩
abbrev S8x1024x1024 : Shape := ⟨3, ![8, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x1024x512, .f32⟩
  | .hbm, ⟨2, _⟩ => ⟨S8x8192x1024, .f32⟩
  | .hbm, ⟨3, _⟩ => ⟨S8x8x1024x1024, .f32⟩
  | .hbm, ⟨4, _⟩ => ⟨S_, .f32⟩
  | .hbm, ⟨5, _⟩ => ⟨S8x1024x1024, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S8x8192x1024_S8x8x1024x1024 : S8x8192x1024.ShapeCasts S8x8x1024x1024
  reducesTo_S8x8x1024x1024_S8x1024x1024_d0 : S8x8x1024x1024.ReducesTo [0] S8x1024x1024
  h_S_ : 0 < S_.numel
  dot_S8x8192x512_S8x1024x512_S8x8192x1024_2_2_1_1_0_0_wf : DotDims.WF S8x8192x512 S8x1024x512 S8x8192x1024 [2] [2] [1] [1] [0] [0]

variable [Facts₀]

def dot_S8x8192x512_S8x1024x512_S8x8192x1024_2_2_1_1_0_0 : DotDims S8x8192x512 S8x1024x512 S8x8192x1024 where
  lhsContracting := [2]
  rhsContracting := [2]
  lhsNonContracting := [1]
  rhsNonContracting := [1]
  lhsBatch := [0]
  rhsBatch := [0]
  wf := dot_S8x8192x512_S8x1024x512_S8x8192x1024_2_2_1_1_0_0_wf

class Facts : Prop extends Facts₀ where

variable [Facts]
-- ==== Proof.WordCases.lean ====
/-
  The two control cases of the body, decided over the grid.

  The grid is (dst, src) = (8, 8), a point t = 8·dst + src.  The body has two conditionals, both on the
  second coordinate src alone: the first (src = 0) stores the product block into the output buffer, the
  second (src ≠ 0) adds the product block to what the buffer holds.  Exactly one of them holds at every
  point: at the points t ≡ 0 (mod 8) the first, at all the others the second.  So the output window is
  live at every point (it is stored into whichever case the point is in), and its block is written back
  exactly at the points t ≡ 7 (mod 8), the last src of each dst.
-/
import proofs.«102911_j15496242004357_2_alg».proof.Proof.Gen.Kernel.Frame
import proofs.«102911_j15496242004357_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The first conditional (store) holds exactly at the first source of each destination block. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional (accumulate) holds exactly at the other sources. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the second coordinate, one of the two conditionals holds: the output window is idle nowhere. -/
theorem live_out : ∀ i : grid0.Coords, cfg0.idle 2 i = false := fun i => by
  have key : ∀ x : Fin 8,
      (!(Scalar.cmpi .ne (Scalar.extui (Scalar.cmpi .eq (BitVec.ofNat 32 x.val) 0#32) : BitVec 32) 0#32 == 1#1)
        && !(Scalar.cmpi .ne (Scalar.extui (Scalar.cmpi .ne (BitVec.ofNat 32 x.val) 0#32) : BitVec 32) 0#32 == 1#1)) = false := by
    decide +kernel
  exact key (i 1)

/-- The two input windows are idle nowhere (inputs never are). -/
theorem live_in0 : ∀ i : grid0.Coords, cfg0.idle 0 i = false := fun _ => rfl
theorem live_in1 : ∀ i : grid0.Coords, cfg0.idle 1 i = false := fun _ => rfl

/-- Each window's current staging memref at point `t`, as the pipeline passes it to the body, and its wholeness. -/
abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)

/-- One staging buffer of the output window, through which its contents are stated (any choice gives the same reading). -/
abbrev outView : View sig .tc .vmem S1x1024x1024 .f32 := (Memref.whole cc0_stg2_0 : Memref sig .tc .vmem S1x1024x1024 .f32).view

end Cert.Kernel.Body

end
-- ==== Proof.WordRunFirst.lean ====
/-
  The body at a point of the FIRST source (src = 0): it loads the input block and the resident weight
  slab of this source, forms the product block, and stores it over the whole output buffer, whatever
  the buffer held.  The triple: from the two input buffers at their contents and the output buffer at
  anything, the body runs to the end with the inputs as they were and the output buffer overwritten
  by the pieces of its one store (the list the run finds).
-/
import proofs.«102911_j15496242004357_2_alg».proof.Proof.WordCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer at a first-source point, with the proof
    that on whole staging memrefs the body runs to a continuation holding the inputs as they were and
    the output buffer with those pieces written. -/
noncomputable def runFirst (c : Dev nD) (i : grid0.Coords)
    (arg2 : Memref sig .tc .vmem S1x1024x512 .f32) (harg2 : arg2.IsWhole)
    (arg3 : Memref sig .tc .vmem S8x512x1024 .bf16) (harg3 : arg3.IsWhole)
    (arg4 : Memref sig .tc .vmem S1x1024x1024 .f32) (harg4 : arg4.IsWhole)
    (hc1 : k0_cond1 i = 1#1) (hc2 : ¬ k0_cond2 i = 1#1)
    (x0 : Vec F S1x1024x512 .f32) (x1 : Vec F S8x512x1024 .bf16) :
    { L2 : List (View.Piece (Elt F) S1x1024x1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__gemm_rs_kernel i arg2 harg2 arg3 harg3 arg4 harg4) K } := by
  refine ⟨?_, fun E K => ?run⟩
  case run =>
    simp only [cc0__gemm_rs_kernel_eq_skeleton]; unfold cc0__gemm_rs_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.WordRunLater.lean ====
/-
  The body at a point of a LATER source (src ≠ 0): it loads the input block and the resident weight
  slab of this source, forms the product block, loads the output buffer, adds the product to it, and
  stores the sum over the whole output buffer.  The triple: from the two input buffers at their
  contents and the output buffer at the running contents, the body runs to the end with the inputs as
  they were and the output buffer overwritten by the pieces of its one store.
-/
import proofs.«102911_j15496242004357_2_alg».proof.Proof.WordCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer at a later-source point, with the proof
    that on whole staging memrefs — the output's at the running contents `acc` — the body runs to a
    continuation holding the inputs as they were and the output buffer with those pieces written. -/
noncomputable def runLater (c : Dev nD) (i : grid0.Coords)
    (arg2 : Memref sig .tc .vmem S1x1024x512 .f32) (harg2 : arg2.IsWhole)
    (arg3 : Memref sig .tc .vmem S8x512x1024 .bf16) (harg3 : arg3.IsWhole)
    (arg4 : Memref sig .tc .vmem S1x1024x1024 .f32) (harg4 : arg4.IsWhole)
    (hc1 : ¬ k0_cond1 i = 1#1) (hc2 : k0_cond2 i = 1#1)
    (x0 : Vec F S1x1024x512 .f32) (x1 : Vec F S8x512x1024 .bf16) (acc : Vec F S1x1024x1024 .f32) :
    { L2 : List (View.Piece (Elt F) S1x1024x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__gemm_rs_kernel i arg2 harg2 arg3 harg3 arg4 harg4) K } := by
  refine ⟨?_, fun E K => ?run⟩
  case run =>
    simp only [cc0__gemm_rs_kernel_eq_skeleton]; unfold cc0__gemm_rs_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Body

end
-- ==== Proof.WordFrame.lean ====
/-
  The frame of the program: it runs to the end, nothing faults, and the argument arrays end unchanged.

  What the output window's staging buffer holds after the body at each grid point is defined by
  recursion on the point.  At a point of the first source (t ≡ 0 mod 8) the body overwrites the buffer
  with the product block of that point's input block and weight slab; at any other point it overwrites
  it with the sum of what the point before left and the product block of this point.  The buffer is
  carried from a point to the next exactly when the point before did not write it back, and it is
  written back only at t ≡ 7 (mod 8); so at every later-source point the body finds what the point
  before left.  With the proof data so defined, the body's triple at a point is the run of the case the
  point is in, and the library's launch theorem gives the whole run.
-/
import proofs.«102911_j15496242004357_2_alg».proof.Proof.WordRunFirst
import proofs.«102911_j15496242004357_2_alg».proof.Proof.WordRunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The one store of a first-source point covers the whole output buffer. -/
theorem coverFirst (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : k0_cond1 i = 1#1) (hc2 : ¬ k0_cond2 i = 1#1)
    (x0 : Vec F S1x1024x512 .f32) (x1 : Vec F S8x512x1024 .bf16) (y : S1x1024x1024.Idx) :
    ∃ pc ∈ (runFirst c i a2 h2 a3 h3 a4 h4 hc1 hc2 x0 x1).1, y ∈ pc.1.set :=
  View.cover_of_tiledL (runFirst c i a2 h2 a3 h3 a4 h4 hc1 hc2 x0 x1).1 S1x1024x1024.size (by sl_kernel_rfl) y

/-- What a first-source point leaves in the output buffer: its store read back. -/
def outFirst (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : k0_cond1 i = 1#1) (hc2 : ¬ k0_cond2 i = 1#1)
    (x0 : Vec F S1x1024x512 .f32) (x1 : Vec F S8x512x1024 .bf16) : Vec F S1x1024x1024 .f32 :=
  outView.read (Elt F) (outView.writes (Elt F) outView.junk (runFirst c i a2 h2 a3 h3 a4 h4 hc1 hc2 x0 x1).1)

/-- The one store of a later-source point covers the whole output buffer. -/
theorem coverLater (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : ¬ k0_cond1 i = 1#1) (hc2 : k0_cond2 i = 1#1)
    (x0 : Vec F S1x1024x512 .f32) (x1 : Vec F S8x512x1024 .bf16) (acc : Vec F S1x1024x1024 .f32) (y : S1x1024x1024.Idx) :
    ∃ pc ∈ (runLater c i a2 h2 a3 h3 a4 h4 hc1 hc2 x0 x1 acc).1, y ∈ pc.1.set :=
  View.cover_of_tiledL (runLater c i a2 h2 a3 h3 a4 h4 hc1 hc2 x0 x1 acc).1 S1x1024x1024.size (by sl_kernel_rfl) y

/-- What a later-source point leaves in the output buffer that held `acc`: its store read back. -/
def outLater (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : ¬ k0_cond1 i = 1#1) (hc2 : k0_cond2 i = 1#1)
    (x0 : Vec F S1x1024x512 .f32) (x1 : Vec F S8x512x1024 .bf16) (acc : Vec F S1x1024x1024 .f32) : Vec F S1x1024x1024 .f32 :=
  outView.read (Elt F) (outView.writes (Elt F) outView.junk (runLater c i a2 h2 a3 h3 a4 h4 hc1 hc2 x0 x1 acc).1)

/-! ## The output buffer after each point -/

/-- The accumulation: what the output window's staging buffer holds after the body at point `n`. -/
def outsAt (c : Dev nD) : (n : ℕ) → n < cfg0.N → Vec F S1x1024x1024 .f32
  | 0, hn =>
    outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((first_iff ⟨0, hn⟩).mpr (Nat.zero_mod _)) (fun h => (later_iff ⟨0, hn⟩).mp h (Nat.zero_mod _))
      (iblk m c 0 ⟨0, hn⟩) (iblk m c 1 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((first_iff ⟨n + 1, hn⟩).mpr h0) (fun h => (later_iff ⟨n + 1, hn⟩).mp h h0)
        (iblk m c 0 ⟨n + 1, hn⟩) (iblk m c 1 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((first_iff ⟨n + 1, hn⟩).mp h)) ((later_iff ⟨n + 1, hn⟩).mpr h0)
        (iblk m c 0 ⟨n + 1, hn⟩) (iblk m c 1 ⟨n + 1, hn⟩) (outsAt c n (Nat.lt_of_succ_lt hn))

/-- At a first-source point the buffer holds that case's contents. -/
theorem outsAt_first (c : Dev nD) (t : Fin cfg0.N) (h0 : t.val % 8 = 0) :
    outsAt m c t.val t.isLt = outFirst c (grid0.coords t) (ms0 t) (hs0 t) (ms1 t) (hs1 t) (ms2 t) (hs2 t)
      ((first_iff t).mpr h0) (fun h => (later_iff t).mp h h0) (iblk m c 0 t) (iblk m c 1 t) := by
  obtain ⟨n, hn⟩ := t
  cases n with
  | zero => exact rfl
  | succ n => exact (dif_pos h0).trans rfl

/-- At a later-source point the buffer holds that case's contents, over what the point before left. -/
theorem outsAt_later (c : Dev nD) (t : Fin cfg0.N) (h0 : ¬ t.val % 8 = 0) :
    outsAt m c t.val t.isLt = outLater c (grid0.coords t) (ms0 t) (hs0 t) (ms1 t) (hs1 t) (ms2 t) (hs2 t)
      (fun h => h0 ((first_iff t).mp h)) ((later_iff t).mpr h0) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at a point each input's buffer at its block and
    the output's at `outsAt`; the region's invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later-source point the output's current staging buffer holds what the body left at the point
    before: the point is not the first, and the point before (not ≡ 7 mod 8) did not write the block back. -/
theorem before2_later (c : Dev nD) (t : Fin cfg0.N) (h0 : ¬ t.val % 8 = 0) (d) :
    (dats m 0 c).before 2 t d = (outsAt m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live_out (fun _ _ => rfl)]
  dsimp only [dats]

/-- No window is idle at any point, so the body hands every buffer back at the stated contents. -/
theorem leaves0 (c : Dev nD) (t : Fin cfg0.N) :
    (dats m 0 c).leavesExact 0 t = owns (c : Thread nD τ) (ms0 t) fullShare ((dats m 0 c).after 0 t) := by
  unfold Dat.leavesExact; rw [live_in0 (grid0.coords t)]
theorem leaves1 (c : Dev nD) (t : Fin cfg0.N) :
    (dats m 0 c).leavesExact 1 t = owns (c : Thread nD τ) (ms1 t) fullShare ((dats m 0 c).after 1 t) := by
  unfold Dat.leavesExact; rw [live_in1 (grid0.coords t)]
theorem leaves2 (c : Dev nD) (t : Fin cfg0.N) :
    (dats m 0 c).leavesExact 2 t = owns (c : Thread nD τ) (ms2 t) fullShare ((dats m 0 c).after 2 t) := by
  unfold Dat.leavesExact; rw [live_out (grid0.coords t)]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the inputs' buffers hold their blocks; the point is of the first source or of
    a later one; at a later one the output's buffer holds what the point before left; so that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, after0, after1, after2]
  by_cases h0 : t.val % 8 = 0
  · rw [outsAt_first m c t h0]
    unfold outFirst
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · rw [outsAt_later m c t h0]
    simp only [before2_later m c t h0]
    unfold outLater
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the
    pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealCases.lean ====
/-
  The two control cases of the body, decided over the grid.

  The grid is (dst, src) = (8, 8), a point t = 8·dst + src.  The body has two conditionals, both on the
  second coordinate src alone: the first (src = 0) stores the product block into the output buffer, the
  second (src ≠ 0) adds the product block to what the buffer holds.  Exactly one of them holds at every
  point: at the points t ≡ 0 (mod 8) the first, at all the others the second.  So the output window is
  live at every point (it is stored into whichever case the point is in), and its block is written back
  exactly at the points t ≡ 7 (mod 8), the last src of each dst.
-/
import proofs.«102911_j15496242004357_2_alg».proof.Proof.Gen.KernelIdeal.Frame
import proofs.«102911_j15496242004357_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The first conditional (store) holds exactly at the first source of each destination block. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional (accumulate) holds exactly at the other sources. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Whatever the second coordinate, one of the two conditionals holds: the output window is idle nowhere. -/
theorem live_out : ∀ i : grid0.Coords, cfg0.idle 2 i = false := fun i => by
  have key : ∀ x : Fin 8,
      (!(Scalar.cmpi .ne (Scalar.extui (Scalar.cmpi .eq (BitVec.ofNat 32 x.val) 0#32) : BitVec 32) 0#32 == 1#1)
        && !(Scalar.cmpi .ne (Scalar.extui (Scalar.cmpi .ne (BitVec.ofNat 32 x.val) 0#32) : BitVec 32) 0#32 == 1#1)) = false := by
    decide +kernel
  exact key (i 1)

/-- The two input windows are idle nowhere (inputs never are). -/
theorem live_in0 : ∀ i : grid0.Coords, cfg0.idle 0 i = false := fun _ => rfl
theorem live_in1 : ∀ i : grid0.Coords, cfg0.idle 1 i = false := fun _ => rfl

/-- Each window's current staging memref at point `t`, as the pipeline passes it to the body, and its wholeness. -/
abbrev ms0 (t : Fin cfg0.N) : Memref sig .tc .vmem S1x1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)

/-- One staging buffer of the output window, through which its contents are stated (any choice gives the same reading). -/
abbrev outView : View sig .tc .vmem S1x1024x1024 .f32 := (Memref.whole cc0_stg2_0 : Memref sig .tc .vmem S1x1024x1024 .f32).view

end Cert.KernelIdeal.Body

end
-- ==== Proof.IdealRunFirst.lean ====
/-
  The body at a point of the FIRST source (src = 0): it loads the input block and the resident weight
  slab of this source, forms the product block, and stores it over the whole output buffer, whatever
  the buffer held.  The triple: from the two input buffers at their contents and the output buffer at
  anything, the body runs to the end with the inputs as they were and the output buffer overwritten
  by the pieces of its one store (the list the run finds).
-/
import proofs.«102911_j15496242004357_2_alg».proof.Proof.IdealCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer at a first-source point, with the proof
    that on whole staging memrefs the body runs to a continuation holding the inputs as they were and
    the output buffer with those pieces written. -/
noncomputable def runFirst (c : Dev nD) (i : grid0.Coords)
    (arg2 : Memref sig .tc .vmem S1x1024x512 .f32) (harg2 : arg2.IsWhole)
    (arg3 : Memref sig .tc .vmem S8x512x1024 .bf16) (harg3 : arg3.IsWhole)
    (arg4 : Memref sig .tc .vmem S1x1024x1024 .f32) (harg4 : arg4.IsWhole)
    (hc1 : k0_cond1 i = 1#1) (hc2 : ¬ k0_cond2 i = 1#1)
    (x0 : Vec F S1x1024x512 .f32) (x1 : Vec F S8x512x1024 .bf16) :
    { L2 : List (View.Piece (Elt F) S1x1024x1024 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__gemm_rs_kernel i arg2 harg2 arg3 harg3 arg4 harg4) K } := by
  refine ⟨?_, fun E K => ?run⟩
  case run =>
    simp only [cc0__gemm_rs_kernel_eq_skeleton]; unfold cc0__gemm_rs_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.IdealRunLater.lean ====
/-
  The body at a point of a LATER source (src ≠ 0): it loads the input block and the resident weight
  slab of this source, forms the product block, loads the output buffer, adds the product to it, and
  stores the sum over the whole output buffer.  The triple: from the two input buffers at their
  contents and the output buffer at the running contents, the body runs to the end with the inputs as
  they were and the output buffer overwritten by the pieces of its one store.
-/
import proofs.«102911_j15496242004357_2_alg».proof.Proof.IdealCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer at a later-source point, with the proof
    that on whole staging memrefs — the output's at the running contents `acc` — the body runs to a
    continuation holding the inputs as they were and the output buffer with those pieces written. -/
noncomputable def runLater (c : Dev nD) (i : grid0.Coords)
    (arg2 : Memref sig .tc .vmem S1x1024x512 .f32) (harg2 : arg2.IsWhole)
    (arg3 : Memref sig .tc .vmem S8x512x1024 .bf16) (harg3 : arg3.IsWhole)
    (arg4 : Memref sig .tc .vmem S1x1024x1024 .f32) (harg4 : arg4.IsWhole)
    (hc1 : ¬ k0_cond1 i = 1#1) (hc2 : k0_cond2 i = 1#1)
    (x0 : Vec F S1x1024x512 .f32) (x1 : Vec F S8x512x1024 .bf16) (acc : Vec F S1x1024x1024 .f32) :
    { L2 : List (View.Piece (Elt F) S1x1024x1024 .f32) //
      ∀ (E : Set ℕ) (K : PUnit → sProp 𝕄),
        iprop(owns (c : Thread nD τ) arg2 fullShare x0 ∗ owns (c : Thread nD τ) arg3 fullShare x1
            ∗ owns (c : Thread nD τ) arg4 fullShare acc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__gemm_rs_kernel i arg2 harg2 arg3 harg3 arg4 harg4) K } := by
  refine ⟨?_, fun E K => ?run⟩
  case run =>
    simp only [cc0__gemm_rs_kernel_eq_skeleton]; unfold cc0__gemm_rs_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Body

end
-- ==== Proof.IdealFrame.lean ====
/-
  The frame of the program: it runs to the end, nothing faults, and the argument arrays end unchanged.

  What the output window's staging buffer holds after the body at each grid point is defined by
  recursion on the point.  At a point of the first source (t ≡ 0 mod 8) the body overwrites the buffer
  with the product block of that point's input block and weight slab; at any other point it overwrites
  it with the sum of what the point before left and the product block of this point.  The buffer is
  carried from a point to the next exactly when the point before did not write it back, and it is
  written back only at t ≡ 7 (mod 8); so at every later-source point the body finds what the point
  before left.  With the proof data so defined, the body's triple at a point is the run of the case the
  point is in, and the library's launch theorem gives the whole run.
-/
import proofs.«102911_j15496242004357_2_alg».proof.Proof.IdealRunFirst
import proofs.«102911_j15496242004357_2_alg».proof.Proof.IdealRunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output buffer -/

/-- The one store of a first-source point covers the whole output buffer. -/
theorem coverFirst (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : k0_cond1 i = 1#1) (hc2 : ¬ k0_cond2 i = 1#1)
    (x0 : Vec F S1x1024x512 .f32) (x1 : Vec F S8x512x1024 .bf16) (y : S1x1024x1024.Idx) :
    ∃ pc ∈ (runFirst c i a2 h2 a3 h3 a4 h4 hc1 hc2 x0 x1).1, y ∈ pc.1.set :=
  View.cover_of_tiledL (runFirst c i a2 h2 a3 h3 a4 h4 hc1 hc2 x0 x1).1 S1x1024x1024.size (by sl_kernel_rfl) y

/-- What a first-source point leaves in the output buffer: its store read back. -/
def outFirst (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : k0_cond1 i = 1#1) (hc2 : ¬ k0_cond2 i = 1#1)
    (x0 : Vec F S1x1024x512 .f32) (x1 : Vec F S8x512x1024 .bf16) : Vec F S1x1024x1024 .f32 :=
  outView.read (Elt F) (outView.writes (Elt F) outView.junk (runFirst c i a2 h2 a3 h3 a4 h4 hc1 hc2 x0 x1).1)

/-- The one store of a later-source point covers the whole output buffer. -/
theorem coverLater (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : ¬ k0_cond1 i = 1#1) (hc2 : k0_cond2 i = 1#1)
    (x0 : Vec F S1x1024x512 .f32) (x1 : Vec F S8x512x1024 .bf16) (acc : Vec F S1x1024x1024 .f32) (y : S1x1024x1024.Idx) :
    ∃ pc ∈ (runLater c i a2 h2 a3 h3 a4 h4 hc1 hc2 x0 x1 acc).1, y ∈ pc.1.set :=
  View.cover_of_tiledL (runLater c i a2 h2 a3 h3 a4 h4 hc1 hc2 x0 x1 acc).1 S1x1024x1024.size (by sl_kernel_rfl) y

/-- What a later-source point leaves in the output buffer that held `acc`: its store read back. -/
def outLater (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : ¬ k0_cond1 i = 1#1) (hc2 : k0_cond2 i = 1#1)
    (x0 : Vec F S1x1024x512 .f32) (x1 : Vec F S8x512x1024 .bf16) (acc : Vec F S1x1024x1024 .f32) : Vec F S1x1024x1024 .f32 :=
  outView.read (Elt F) (outView.writes (Elt F) outView.junk (runLater c i a2 h2 a3 h3 a4 h4 hc1 hc2 x0 x1 acc).1)

/-! ## The output buffer after each point -/

/-- The accumulation: what the output window's staging buffer holds after the body at point `n`. -/
def outsAt (c : Dev nD) : (n : ℕ) → n < cfg0.N → Vec F S1x1024x1024 .f32
  | 0, hn =>
    outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((first_iff ⟨0, hn⟩).mpr (Nat.zero_mod _)) (fun h => (later_iff ⟨0, hn⟩).mp h (Nat.zero_mod _))
      (iblk m c 0 ⟨0, hn⟩) (iblk m c 1 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((first_iff ⟨n + 1, hn⟩).mpr h0) (fun h => (later_iff ⟨n + 1, hn⟩).mp h h0)
        (iblk m c 0 ⟨n + 1, hn⟩) (iblk m c 1 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((first_iff ⟨n + 1, hn⟩).mp h)) ((later_iff ⟨n + 1, hn⟩).mpr h0)
        (iblk m c 0 ⟨n + 1, hn⟩) (iblk m c 1 ⟨n + 1, hn⟩) (outsAt c n (Nat.lt_of_succ_lt hn))

/-- At a first-source point the buffer holds that case's contents. -/
theorem outsAt_first (c : Dev nD) (t : Fin cfg0.N) (h0 : t.val % 8 = 0) :
    outsAt m c t.val t.isLt = outFirst c (grid0.coords t) (ms0 t) (hs0 t) (ms1 t) (hs1 t) (ms2 t) (hs2 t)
      ((first_iff t).mpr h0) (fun h => (later_iff t).mp h h0) (iblk m c 0 t) (iblk m c 1 t) := by
  obtain ⟨n, hn⟩ := t
  cases n with
  | zero => exact rfl
  | succ n => exact (dif_pos h0).trans rfl

/-- At a later-source point the buffer holds that case's contents, over what the point before left. -/
theorem outsAt_later (c : Dev nD) (t : Fin cfg0.N) (h0 : ¬ t.val % 8 = 0) :
    outsAt m c t.val t.isLt = outLater c (grid0.coords t) (ms0 t) (hs0 t) (ms1 t) (hs1 t) (ms2 t) (hs2 t)
      (fun h => h0 ((first_iff t).mp h)) ((later_iff t).mpr h0) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at a point each input's buffer at its block and
    the output's at `outsAt`; the region's invariant the scoped rest and the generator register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later-source point the output's current staging buffer holds what the body left at the point
    before: the point is not the first, and the point before (not ≡ 7 mod 8) did not write the block back. -/
theorem before2_later (c : Dev nD) (t : Fin cfg0.N) (h0 : ¬ t.val % 8 = 0) (d) :
    (dats m 0 c).before 2 t d = (outsAt m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    live_out (fun _ _ => rfl)]
  dsimp only [dats]

/-- No window is idle at any point, so the body hands every buffer back at the stated contents. -/
theorem leaves0 (c : Dev nD) (t : Fin cfg0.N) :
    (dats m 0 c).leavesExact 0 t = owns (c : Thread nD τ) (ms0 t) fullShare ((dats m 0 c).after 0 t) := by
  unfold Dat.leavesExact; rw [live_in0 (grid0.coords t)]
theorem leaves1 (c : Dev nD) (t : Fin cfg0.N) :
    (dats m 0 c).leavesExact 1 t = owns (c : Thread nD τ) (ms1 t) fullShare ((dats m 0 c).after 1 t) := by
  unfold Dat.leavesExact; rw [live_in1 (grid0.coords t)]
theorem leaves2 (c : Dev nD) (t : Fin cfg0.N) :
    (dats m 0 c).leavesExact 2 t = owns (c : Thread nD τ) (ms2 t) fullShare ((dats m 0 c).after 2 t) := by
  unfold Dat.leavesExact; rw [live_out (grid0.coords t)]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point: the inputs' buffers hold their blocks; the point is of the first source or of
    a later one; at a later one the output's buffer holds what the point before left; so that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, after0, after1, after2]
  by_cases h0 : t.val % 8 = 0
  · rw [outsAt_first m c t h0]
    unfold outFirst
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _)
  · rw [outsAt_later m c t h0]
    simp only [before2_later m c t h0]
    unfold outLater
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the
    pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.GemmSpec.lean ====
/-
  The specification: the reduce-scattered product as ONE function of the two argument arrays.

  With a : [8, 8192, 512] (the per-source inputs) and w : [8, 1024, 512] (the per-source weights), the
  result at (d, r, n) is the sum over the eight sources s of the row-by-row product
      ∑ k, a[s, 1024·d + r, k] · w[s, n, k].
  The kernel reaches it one source at a time, so the partial sums over the sources 0..s are named too
  (`acc`), with the two recurrences an induction over the grid points uses.  Sources and destination
  blocks are natural numbers here, a term outside the 8 × 8 grid being zero, so that the recurrences
  are those of a sum over `Finset.range`.
-/
import Idealize.ShloMosaic.PureOps.Ideal
import Idealize.ShloMosaic.Lib.ValueIdx

noncomputable section

namespace Cert.GemmSpec

open Idealize.ShloMosaic Idealize.ShloMosaic.ValueIdx

abbrev SIn : Shape := ⟨3, ![8, 8192, 512]⟩
abbrev SW : Shape := ⟨3, ![8, 1024, 512]⟩
abbrev SOut : Shape := ⟨3, ![8, 1024, 1024]⟩

/-- Row `r` of destination block `d` is row `1024·d + r` of a source's input. -/
abbrev rowOf (d : ℕ) (hd : d < 8) (r : Fin 1024) : Fin 8192 := ⟨d * 1024 + r.val, by have := r.isLt; omega⟩

/-- Source `s`'s contribution at destination block `d`, row `r`, column `n` (zero outside the grid). -/
def term (a : SIn.Idx → EReal) (w : SW.Idx → EReal) (s d : ℕ) (r n : Fin 1024) : EReal :=
  if h : s < 8 ∧ d < 8 then
    ∑ k : Fin 512, a (ix3 (⟨s, h.1⟩ : Fin 8) (rowOf d h.2 r) k) * w (ix3 (⟨s, h.1⟩ : Fin 8) n k)
  else 0

theorem term_of_lt (a : SIn.Idx → EReal) (w : SW.Idx → EReal) (s d : ℕ) (hs : s < 8) (hd : d < 8) (r n : Fin 1024) :
    term a w s d r n = ∑ k : Fin 512, a (ix3 (⟨s, hs⟩ : Fin 8) (rowOf d hd r) k) * w (ix3 (⟨s, hs⟩ : Fin 8) n k) := by
  unfold term; rw [dif_pos ⟨hs, hd⟩]

/-- The sum of the contributions of the sources `0, …, s`. -/
def acc (a : SIn.Idx → EReal) (w : SW.Idx → EReal) (s d : ℕ) (r n : Fin 1024) : EReal :=
  ∑ s' ∈ Finset.range (s + 1), term a w s' d r n

theorem acc_zero (a : SIn.Idx → EReal) (w : SW.Idx → EReal) (d : ℕ) (r n : Fin 1024) :
    acc a w 0 d r n = term a w 0 d r n := by
  unfold acc; exact Finset.sum_range_one _

theorem acc_succ (a : SIn.Idx → EReal) (w : SW.Idx → EReal) (s d : ℕ) (r n : Fin 1024) :
    acc a w (s + 1) d r n = acc a w s d r n + term a w (s + 1) d r n := by
  unfold acc; exact Finset.sum_range_succ _ _

/-- The result array: all eight sources summed. -/
def G (a : SIn.Idx → EReal) (w : SW.Idx → EReal) : SOut.Idx → EReal :=
  fun j => acc a w 7 (j 0).val ⟨(j 1).val, (j 1).isLt⟩ ⟨(j 2).val, (j 2).isLt⟩

/-- The result at an index, as the double sum over sources and the contracted axis. -/
theorem G_apply (a : SIn.Idx → EReal) (w : SW.Idx → EReal) (j : SOut.Idx) :
    G a w j = ∑ s : Fin 8, ∑ k : Fin 512,
      a (ix3 s (rowOf (j 0).val (j 0).isLt ⟨(j 1).val, (j 1).isLt⟩) k) * w (ix3 s (⟨(j 2).val, (j 2).isLt⟩ : Fin 1024) k) := by
  unfold G acc
  rw [← Fin.sum_univ_eq_sum_range (fun s' => term a w s' (j 0).val ⟨(j 1).val, (j 1).isLt⟩ ⟨(j 2).val, (j 2).isLt⟩) 8]
  exact Finset.sum_congr rfl fun s _ => term_of_lt a w s.val (j 0).val s.isLt (j 0).isLt _ _

end Cert.GemmSpec

end
-- ==== Proof.IdealBlocks.lean ====
/-
  What the body leaves and what it reads, as values.

  Each case's stored pieces are one whole-buffer store, so the output buffer after a first-source point
  is the stored product block, and after a later-source point the stored sum of the running contents and
  the product block; the loads of the whole input buffer and of the whole output buffer read their
  contents, and the load of the weight buffer reads the slab of this point's source.

  The blocks themselves, at the point t = 8·d + s: the input block is rows 1024·d … 1024·d + 1023 of
  source s of the first argument; the weight window is the whole array the host operations before the
  region wrote, which is the second argument with its last two axes exchanged; the slab loaded from it
  starts at (s, 0, 0).
-/
import proofs.«102911_j15496242004357_2_alg».proof.Proof.IdealFrame
import proofs.«102911_j15496242004357_2_alg».proof.Proof.GemmSpec
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Body
open Idealize.ShloMosaic Idealize.ShloMosaic.TcCoe Idealize.SL.Sem Idealize.ShloMosaic.ValueIdx Idealize.ShloMosaic.Tactic
open Idealize.ShloMosaic.Pipeline (Dat)

/-- The zero offsets of a whole-buffer access, however spelt. -/
theorem hz : (![0, 0, 0] : Fin 3 → Nat) = fun _ => 0 := funext fun a => by fin_cases a <;> rfl

section Generic
variable {F : FTy → Type} [FloatOps F]

/-- The rectangle of the resident weight array the body loads at a point: this source's slab. -/
abbrev slabRect (i : grid0.Coords) : Rect S8x512x1024 :=
  Rect.unit (s := S8x512x1024) (k0_off1 i) S1x512x1024.size (k0_off1_inb i)

/-- After a first-source point the output buffer holds the stored product block of the input block and
    this source's weight slab. -/
theorem outFirst_eq (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : k0_cond1 i = 1#1) (hc2 : ¬ k0_cond2 i = 1#1)
    (x0 : Vec F S1x1024x512 .f32) (x1 : Vec F S8x512x1024 .bf16) :
    outFirst c i a2 h2 a3 h3 a4 h4 hc1 hc2 x0 x1 = k0_pay2 x0 (View.ld x1 (slabRect i)) := by
  unfold outFirst
  rw [View.read_writes_eq_canon _ _ _ (coverFirst c i a2 h2 a3 h3 a4 h4 hc1 hc2 x0 x1)]
  unfold runFirst
  dsimp only
  rw [View.canon_unit_zero hz]
  simp only [View.readAt_eq_ld, h2.read_unread, h3.read_unread, View.ld_unit_zero (S := S1x1024x512) hz]

/-- After a later-source point the output buffer holds the running contents plus that product block. -/
theorem outLater_eq (c : Dev nD) (i : grid0.Coords)
    (a2 : Memref sig .tc .vmem S1x1024x512 .f32) (h2 : a2.IsWhole) (a3 : Memref sig .tc .vmem S8x512x1024 .bf16) (h3 : a3.IsWhole)
    (a4 : Memref sig .tc .vmem S1x1024x1024 .f32) (h4 : a4.IsWhole) (hc1 : ¬ k0_cond1 i = 1#1) (hc2 : k0_cond2 i = 1#1)
    (x0 : Vec F S1x1024x512 .f32) (x1 : Vec F S8x512x1024 .bf16) (o : Vec F S1x1024x1024 .f32) :
    outLater c i a2 h2 a3 h3 a4 h4 hc1 hc2 x0 x1 o = k0_pay3 x0 (View.ld x1 (slabRect i)) o := by
  unfold outLater
  rw [View.read_writes_eq_canon _ _ _ (coverLater c i a2 h2 a3 h3 a4 h4 hc1 hc2 x0 x1 o)]
  unfold runLater
  dsimp only
  rw [View.canon_unit_zero hz]
  simp only [View.readAt_eq_ld, h2.read_unread, h3.read_unread, h4.read_unread, View.ld_unit_zero (S := S1x1024x512) hz,
    View.ld_unit_zero (S := S1x1024x1024) hz]

variable (m : (ℓ : Loc nD τ sig) → Buf (Elt F) ℓ)

/-- The printed index maps and the slab's offset, decided over the grid: at the point t = 8·d + s the
    input block is block (s, d, 0), the weight window is the whole array, the output block is (d, 0, 0),
    and the slab the body loads starts at (s, 0, 0). -/
theorem idx_facts : ∀ t : Fin cfg0.N,
    win0_0.index t (0 : Fin 3) = t.val % 8 ∧ win0_0.index t (1 : Fin 3) = t.val / 8 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ k0_off1 (grid0.coords t) (0 : Fin 3) = t.val % 8 ∧ k0_off1 (grid0.coords t) (1 : Fin 3) = 0 ∧ k0_off1 (grid0.coords t) (2 : Fin 3) = 0 :=
  (by decide +kernel : ∀ t : Fin grid0.N, _)

/-- The input block at the point t = 8·d + s, at (0, r, k): the first argument at (s, 1024·d + r, k). -/
theorem in_block (c : Dev nD) (t : Fin cfg0.N) (hs : t.val % 8 < 8) (hd : t.val / 8 < 8) (r : Fin 1024) (k : Fin 512) :
    (iblk m c 0 t : Vec F S1x1024x512 .f32) (ix3 (0 : Fin 1) r k)
      = m ((c : Thread nD τ).loc main_arg0) (ix3 (⟨t.val % 8, hs⟩ : Fin 8) (GemmSpec.rowOf (t.val / 8) hd r) k) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val % 8; rw [e0]; omega
  | ⟨1, _⟩ => show win0_0.index t (1 : Fin 3) * 1024 + 1 * r.val = t.val / 8 * 1024 + r.val; rw [e1]; omega
  | ⟨2, _⟩ => show win0_0.index t (2 : Fin 3) * 512 + 1 * k.val = k.val; rw [e2]; omega

/-- The weight window's block is the whole array the host operations before the region wrote: the
    weights with their last two axes exchanged (the change of format is an operation of its own). -/
theorem w_block (c : Dev nD) (t : Fin cfg0.N) (y : S8x512x1024.Idx) :
    (iblk m c 1 t : Vec F S8x512x1024 .bf16) y = V m c main_v1 y := by
  obtain ⟨-, -, -, e0, e1, e2, -⟩ := idx_facts t
  unfold iblk
  rw [View.read_apply]
  show V m c main_v1 _ = _
  refine congrArg _ (funext fun a => Fin.ext ?_)
  match a with
  | ⟨0, _⟩ => show win0_1.index t (0 : Fin 3) * 8 + 1 * (y 0).val = (y 0).val; rw [e0]; omega
  | ⟨1, _⟩ => show win0_1.index t (1 : Fin 3) * 512 + 1 * (y 1).val = (y 1).val; rw [e1]; omega
  | ⟨2, _⟩ => show win0_1.index t (2 : Fin 3) * 1024 + 1 * (y 2).val = (y 2).val; rw [e2]; omega

/-- What the two host operations before the region leave in the resident array: the second argument
    with its last two axes exchanged, then its format narrowed. -/
theorem w_array (c : Dev nD) :
    (V m c main_v1 : S8x512x1024.Idx → Elt F .bf16)
      = truncf .bf16 (transpose S8x512x1024 [0, 2, 1] (m ((c : Thread nD τ).loc main_arg1)) transposes_S8x1024x512_S8x512x1024_0_2_1) bitsLt_bf16_f32 := by
  dsimp only [V, hostOps0]; after_results

/-- The slab's rectangle at the point t = 8·d + s sends (0, k, n) to (s, k, n). -/
theorem slab_idx (t : Fin cfg0.N) (hs : t.val % 8 < 8) (k : Fin 512) (n : Fin 1024) :
    (slabRect (grid0.coords t)).idx (ix3 (0 : Fin 1) k n) = ix3 (⟨t.val % 8, hs⟩ : Fin 8) k n := by
  obtain ⟨-, -, -, -, -, -, -, -, -, e0, e1, e2⟩ := idx_facts t
  refine funext fun a => Fin.ext ?_
  match a with
  | ⟨0, _⟩ => show k0_off1 (grid0.coords t) (0 : Fin 3) + 1 * 0 = t.val % 8; rw [e0]; omega
  | ⟨1, _⟩ => show k0_off1 (grid0.coords t) (1 : Fin 3) + 1 * k.val = k.val; rw [e1]; omega
  | ⟨2, _⟩ => show k0_off1 (grid0.coords t) (2 : Fin 3) + 1 * n.val = n.val; rw [e2]; omega

end Generic
end Cert.KernelIdeal.KValue
end
-- ==== Proof.IdealPayload.lean ====
/-
  The body's arithmetic read at an index, at the ideal instance.

  The body's product block is a matrix product into the zero accumulator of the input block (its
  leading unit axis dropped, its change of format the identity on extended reals) with this source's
  weight slab (likewise): at row r and column n it is the plain sum ∑ k, x[0, r, k] · v[0, k, n].
  The block a first-source point stores is that product with a leading unit axis added; the block a
  later-source point stores is the buffer's running contents plus that product, entry by entry.
-/
import proofs.«102911_j15496242004357_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-- The left operand's index at output (r, n) and contraction index q: (r, q). -/
theorem lhs_row (j : S1024x1024.Idx) (q : dot_S1024x512_S512x1024_S1024x1024_1_0_0_1_n_n.contr.Idx) : (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_contr (j : S1024x1024.Idx) (q : dot_S1024x512_S512x1024_S1024x1024_1_0_0_1_n_n.contr.Idx) : (dot_S1024x512_S512x1024_S1024x1024_1_0_0_1_n_n.lhsIdx j q 1).val = (q ⟨0, by decide⟩).val :=
  dot_S1024x512_S512x1024_S1024x1024_1_0_0_1_n_n.lhsIdx_val_of_single rfl j q
/-- The right operand's index there: (q, n). -/
theorem rhs_contr (j : S1024x1024.Idx) (q : dot_S1024x512_S512x1024_S1024x1024_1_0_0_1_n_n.contr.Idx) : (dot_S1024x512_S512x1024_S1024x1024_1_0_0_1_n_n.rhsIdx j q 0).val = (q ⟨0, by decide⟩).val :=
  dot_S1024x512_S512x1024_S1024x1024_1_0_0_1_n_n.rhsIdx_val_of_single rfl j q
theorem rhs_col (j : S1024x1024.Idx) (q : dot_S1024x512_S512x1024_S1024x1024_1_0_0_1_n_n.contr.Idx) : (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product block at row `r`, column `n`: the sum over the contracted axis. -/
theorem prod_apply (x : Vec Ideal S1x1024x512 .f32) (v : Vec Ideal S1x512x1024 .bf16) (r n : Fin 1024) :
    k0_pay1 (F := Ideal) x v (ix2 r n) = ∑ k : Fin 512, x (ix3 (0 : Fin 1) r k) * v (ix3 (0 : Fin 1) k n) := by
  unfold k0_pay1
  refine (Ideal.matmul_constant_zero_apply dot_S1024x512_S512x1024_S1024x1024_1_0_0_1_n_n none _ _ (ix2 r n)).trans ?_
  rw [← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : (Fin.cons (⟨0, Nat.one_pos⟩ : Fin 1) (dot_S1024x512_S512x1024_S1024x1024_1_0_0_1_n_n.lhsIdx (ix2 r n) ((ValueIdx.contrEquiv1 dot_S1024x512_S512x1024_S1024x1024_1_0_0_1_n_n 512 rfl rfl).symm k)) : S1x1024x512.Idx)
      = ix3 (0 : Fin 1) r k := funext fun a => Fin.ext (by
    match a with
    | ⟨0, _⟩ => rfl
    | ⟨1, _⟩ => exact lhs_row (ix2 r n) ((ValueIdx.contrEquiv1 dot_S1024x512_S512x1024_S1024x1024_1_0_0_1_n_n 512 rfl rfl).symm k)
    | ⟨2, _⟩ => exact (lhs_contr (ix2 r n) ((ValueIdx.contrEquiv1 dot_S1024x512_S512x1024_S1024x1024_1_0_0_1_n_n 512 rfl rfl).symm k)).trans hk)
  have er : (Fin.cons (⟨0, Nat.one_pos⟩ : Fin 1) (dot_S1024x512_S512x1024_S1024x1024_1_0_0_1_n_n.rhsIdx (ix2 r n) ((ValueIdx.contrEquiv1 dot_S1024x512_S512x1024_S1024x1024_1_0_0_1_n_n 512 rfl rfl).symm k)) : S1x512x1024.Idx)
      = ix3 (0 : Fin 1) k n := funext fun a => Fin.ext (by
    match a with
    | ⟨0, _⟩ => rfl
    | ⟨1, _⟩ => exact (rhs_contr (ix2 r n) ((ValueIdx.contrEquiv1 dot_S1024x512_S512x1024_S1024x1024_1_0_0_1_n_n 512 rfl rfl).symm k)).trans hk
    | ⟨2, _⟩ => exact rhs_col (ix2 r n) ((ValueIdx.contrEquiv1 dot_S1024x512_S512x1024_S1024x1024_1_0_0_1_n_n 512 rfl rfl).symm k))
  refine congrArg₂ (· * ·) ?_ ?_
  · exact (shapeCast_dropUnit_apply ![1024, 512] x shapeCasts_S1x1024x512_S1024x512 _).trans (congrArg x el)
  · exact (shapeCast_dropUnit_apply ![512, 1024] v shapeCasts_S1x512x1024_S512x1024 _).trans (congrArg v er)

/-- What a first-source point stores, at (0, r, n): the product there. -/
theorem stored_first (x : Vec Ideal S1x1024x512 .f32) (v : Vec Ideal S1x512x1024 .bf16) (r n : Fin 1024) :
    k0_pay2 (F := Ideal) x v (ix3 (0 : Fin 1) r n) = k0_pay1 (F := Ideal) x v (ix2 r n) := by
  unfold k0_pay2
  refine (shapeCast_addUnit_apply ![1024, 1024] (k0_pay1 (F := Ideal) x v) shapeCasts_S1024x1024_S1x1024x1024 _).trans ?_
  exact congrArg _ (funext fun a => by match a with | ⟨0, _⟩ => rfl | ⟨1, _⟩ => rfl)

/-- What a later-source point stores, at (0, r, n): the running contents there plus the product there. -/
theorem stored_later (x : Vec Ideal S1x1024x512 .f32) (v : Vec Ideal S1x512x1024 .bf16) (o : Vec Ideal S1x1024x1024 .f32)
    (r n : Fin 1024) :
    k0_pay3 (F := Ideal) x v o (ix3 (0 : Fin 1) r n) = o (ix3 (0 : Fin 1) r n) + k0_pay1 (F := Ideal) x v (ix2 r n) := by
  unfold k0_pay3
  refine (shapeCast_addUnit_apply ![1024, 1024] _ shapeCasts_S1024x1024_S1x1024x1024 _).trans ?_
  have e : (fun a : Fin 2 => (ix3 (0 : Fin 1) r n : S1x1024x1024.Idx) a.succ) = ix2 r n :=
    funext fun a => by match a with | ⟨0, _⟩ => rfl | ⟨1, _⟩ => rfl
  rw [e]
  refine congrArg₂ (· + ·) ?_ rfl
  refine (shapeCast_dropUnit_apply ![1024, 1024] o shapeCasts_S1x1024x1024_S1024x1024 _).trans (congrArg o ?_)
  exact funext fun a => by match a with | ⟨0, _⟩ => rfl | ⟨1, _⟩ => rfl | ⟨2, _⟩ => rfl

end Cert.KernelIdeal.Payload

end
-- ==== Proof.IdealValue.lean ====
/-
  The idealized kernel computes the specification.

  By induction on the grid point t = 8·d + s: after the body at t, the output window's staging buffer
  holds, at row r and column n, the sum over the sources 0..s of ∑ k, a[s', 1024·d + r, k] · w[s', n, k].
  At s = 0 the body stores the product block of source 0; at s > 0 it adds the product block of source s
  to what the point before left, which is the sum over 0..s−1 by the induction hypothesis.  The block is
  written back at s = 7, when it holds the sum over all eight sources: block (d, 0, 0) of the
  specification.  The eight write-backs tile the result array, which therefore ends holding the
  specification of the two arguments.
-/
import proofs.«102911_j15496242004357_2_alg».proof.Proof.IdealBlocks
import proofs.«102911_j15496242004357_2_alg».proof.Proof.IdealPayload

set_option maxRecDepth 16384

noncomputable section

namespace Cert.KernelIdeal.KValue

open Cert.KernelIdeal Cert.KernelIdeal.Gen Cert.KernelIdeal.Body Cert.KernelIdeal.Payload
open Idealize.ShloMosaic Idealize.ShloMosaic.TcCoe Idealize.SL.Sem Idealize.ShloMosaic.ValueIdx Idealize.ShloMosaic.Tactic
open Idealize.ShloMosaic.Pipeline (Dat)

variable (m : (ℓ : Loc nD τ sig) → Buf (Elt Ideal) ℓ) (ρ : Dev nD → PrngReg)

/-- The two argument arrays on core `c`, as the specification takes them. -/
abbrev argA (c : Dev nD) : GemmSpec.SIn.Idx → EReal := m ((c : Thread nD τ).loc main_arg0)
abbrev argW (c : Dev nD) : GemmSpec.SW.Idx → EReal := m ((c : Thread nD τ).loc main_arg1)

/-- The slab the body loads at point t, at (0, k, n): the weight w[s, n, k] of this point's source —
    the resident array is the weights with the last two axes exchanged, the change of format the identity. -/
theorem slab_read (c : Dev nD) (t : Fin cfg0.N) (hs : t.val % 8 < 8) (k : Fin 512) (n : Fin 1024) :
    View.ld (iblk m c 1 t : Vec Ideal S8x512x1024 .bf16) (slabRect (grid0.coords t)) (ix3 (0 : Fin 1) k n)
      = m ((c : Thread nD τ).loc main_arg1) (ix3 (⟨t.val % 8, hs⟩ : Fin 8) n k) := by
  show (iblk m c 1 t : Vec Ideal S8x512x1024 .bf16) ((slabRect (grid0.coords t)).idx (ix3 (0 : Fin 1) k n)) = _
  rw [slab_idx t hs k n, w_block, w_array]
  exact transpose_apply [0, 2, 1] (m ((c : Thread nD τ).loc main_arg1)) transposes_S8x1024x512_S8x512x1024_0_2_1
    (ix3 (⟨t.val % 8, hs⟩ : Fin 8) k n) (ix3 (⟨t.val % 8, hs⟩ : Fin 8) n k)
    (fun b => by match b with | ⟨0, _⟩ => rfl | ⟨1, _⟩ => rfl | ⟨2, _⟩ => rfl)

/-- The product block of point t = 8·d + s at (r, n): source s's contribution to destination block d. -/
theorem prod_at (c : Dev nD) (t : Fin cfg0.N) (r n : Fin 1024) :
    k0_pay1 (F := Ideal) (iblk m c 0 t) (View.ld (iblk m c 1 t : Vec Ideal S8x512x1024 .bf16) (slabRect (grid0.coords t))) (ix2 r n)
      = GemmSpec.term (argA m c) (argW m c) (t.val % 8) (t.val / 8) r n := by
  have hN : t.val < 64 := lt_of_lt_of_eq t.isLt (show cfg0.N = 64 from N_0)
  have hs : t.val % 8 < 8 := Nat.mod_lt _ (by decide)
  have hd : t.val / 8 < 8 := by omega
  rw [GemmSpec.term_of_lt _ _ _ _ hs hd]
  refine (prod_apply (iblk m c 0 t) (View.ld (iblk m c 1 t : Vec Ideal S8x512x1024 .bf16) (slabRect (grid0.coords t))) r n).trans
    (Finset.sum_congr rfl fun k _ => ?_)
  exact congrArg₂ (· * ·) (in_block m c t hs hd r k) (slab_read m c t hs k n)

/-- THE INVARIANT: after the body at point n = 8·d + s the output buffer holds the sum over the sources 0..s. -/
theorem outsAt_eq (c : Dev nD) : ∀ (n : ℕ) (h : n < cfg0.N) (r n' : Fin 1024),
    (outsAt m c n h : Vec Ideal S1x1024x1024 .f32) (ix3 (0 : Fin 1) r n')
      = GemmSpec.acc (argA m c) (argW m c) (n % 8) (n / 8) r n' := by
  intro n
  induction n with
  | zero =>
    intro h r n'
    rw [outsAt_first m c ⟨0, h⟩ rfl,
      outFirst_eq c (grid0.coords ⟨0, h⟩) (ms0 ⟨0, h⟩) (hs0 ⟨0, h⟩) (ms1 ⟨0, h⟩) (hs1 ⟨0, h⟩) (ms2 ⟨0, h⟩) (hs2 ⟨0, h⟩) _ _
        (iblk m c 0 ⟨0, h⟩) (iblk m c 1 ⟨0, h⟩)]
    refine (stored_first _ _ r n').trans ?_
    exact (prod_at m c ⟨0, h⟩ r n').trans (GemmSpec.acc_zero _ _ _ _ _).symm
  | succ n ih =>
    intro h r n'
    have hN : cfg0.N = 64 := N_0
    by_cases h0 : (n + 1) % 8 = 0
    · rw [outsAt_first m c ⟨n + 1, h⟩ h0,
        outFirst_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) _ _
          (iblk m c 0 ⟨n + 1, h⟩) (iblk m c 1 ⟨n + 1, h⟩)]
      refine (stored_first _ _ r n').trans ?_
      refine (prod_at m c ⟨n + 1, h⟩ r n').trans ?_
      show GemmSpec.term _ _ ((n + 1) % 8) ((n + 1) / 8) r n' = GemmSpec.acc _ _ ((n + 1) % 8) ((n + 1) / 8) r n'
      rw [h0]; exact (GemmSpec.acc_zero _ _ _ _ _).symm
    · have e1 : (n + 1) % 8 = n % 8 + 1 := by omega
      have e2 : (n + 1) / 8 = n / 8 := by omega
      have ihn := ih (Nat.lt_of_succ_lt h) r n'
      have hp := prod_at m c ⟨n + 1, h⟩ r n'
      rw [outsAt_later m c ⟨n + 1, h⟩ h0,
        outLater_eq c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) _ _
          (iblk m c 0 ⟨n + 1, h⟩) (iblk m c 1 ⟨n + 1, h⟩)]
      refine (stored_later _ _ _ r n').trans ?_
      show (outsAt m c n _ : Vec Ideal S1x1024x1024 .f32) (ix3 (0 : Fin 1) r n') + _ = _
      rw [ihn]
      refine (congrArg (GemmSpec.acc (argA m c) (argW m c) (n % 8) (n / 8) r n' + ·) hp).trans ?_
      show GemmSpec.acc _ _ (n % 8) (n / 8) r n' + GemmSpec.term _ _ ((n + 1) % 8) ((n + 1) / 8) r n'
        = GemmSpec.acc _ _ ((n + 1) % 8) ((n + 1) / 8) r n'
      rw [e1, e2, GemmSpec.acc_succ]

/-- At the last source of a destination block the buffer holds that block of the specification. -/
theorem block_eq (c : Dev nD) (t : Fin cfg0.N) (h7 : t.val % 8 = 7) (hd : t.val / 8 < 8) (r n' : Fin 1024) :
    (outsAt m c t.val t.isLt : Vec Ideal S1x1024x1024 .f32) (ix3 (0 : Fin 1) r n')
      = GemmSpec.G (argA m c) (argW m c) (ix3 (⟨t.val / 8, hd⟩ : Fin 8) r n') := by
  rw [outsAt_eq m c t.val t.isLt r n', h7]
  rfl

/-- WHAT A WRITE-BACK WRITES is its block of the specification. -/
theorem flushed_eq (c : Dev nD) (t : Fin cfg0.N) (hf : (cfg0.win 2).flush t = true) :
    (dats m 0 c).flushed 2 t = ((cfg0.win 2).blk t).view.read (Elt Ideal) (GemmSpec.G (argA m c) (argW m c)) := by
  have hN : t.val < 64 := lt_of_lt_of_eq t.isLt (show cfg0.N = 64 from N_0)
  have h7 : t.val % 8 = 7 := (flush0_2 t).mp hf
  have hd : t.val / 8 < 8 := by omega
  obtain ⟨-, -, -, -, -, -, e0, e1, e2, -⟩ := idx_facts t
  show (cfg0.win 2).cut (grid0.coords t) ((dats m 0 c).after 2 t) = _
  rw [after2]
  funext y
  show (outsAt m c t.val t.isLt : Vec Ideal S1x1024x1024 .f32) y = GemmSpec.G (argA m c) (argW m c) (((cfg0.win 2).blk t).view.emb y)
  have hy0 : (y 0).val < 1 := (y 0).isLt
  have hy : (y : S1x1024x1024.Idx) = ix3 (0 : Fin 1) (⟨(y 1).val, (y 1).isLt⟩ : Fin 1024) (⟨(y 2).val, (y 2).isLt⟩ : Fin 1024) :=
    funext fun a => Fin.ext (by
      match a with
      | ⟨0, _⟩ => show (y 0).val = 0; omega
      | ⟨1, _⟩ => rfl
      | ⟨2, _⟩ => rfl)
  refine (congrArg (outsAt m c t.val t.isLt : Vec Ideal S1x1024x1024 .f32) hy).trans
    ((block_eq m c t h7 hd _ _).trans (congrArg _ (funext fun a => Fin.ext ?_)))
  match a with
  | ⟨0, _⟩ => show t.val / 8 = win0_2.index t (0 : Fin 3) * 1 + 1 * (y 0).val; rw [e0]; omega
  | ⟨1, _⟩ => show (y 1).val = win0_2.index t (1 : Fin 3) * 1024 + 1 * (y 1).val; rw [e1]; omega
  | ⟨2, _⟩ => show (y 2).val = win0_2.index t (2 : Fin 3) * 1024 + 1 * (y 2).val; rw [e2]; omega

/-- An index of the result array is in point `t`'s block iff each coordinate is in the block's range. -/
theorem mem_blk (t : Fin cfg0.N) (i : S8x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v2).slice (win0_2.rect t)).set ↔ _
  rw [View.set_slice_whole, Rect.mem_set_unit]
  exact Iff.rfl

/-- Every index (d, r, n) of the result array is in the block written back at the point 8·d + 7. -/
theorem cover (i : S8x1024x1024.Idx) :
    ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 1024 := (i 2).isLt
  have hlt : 8 * (i 0).val + 7 < cfg0.N := by rw [show cfg0.N = 64 from N_0]; omega
  refine ⟨⟨8 * (i 0).val + 7, hlt⟩, (flush0_2 _).mpr (by show (8 * (i 0).val + 7) % 8 = 7; omega), ?_⟩
  obtain ⟨-, -, -, -, -, -, e0, e1, e2, -⟩ := idx_facts ⟨8 * (i 0).val + 7, hlt⟩
  have e0' : win0_2.index ⟨8 * (i 0).val + 7, hlt⟩ (0 : Fin 3) = (i 0).val := by rw [e0]; show (8 * (i 0).val + 7) / 8 = (i 0).val; omega
  rw [mem_blk]
  intro a
  match a with
  | ⟨0, _⟩ => show win0_2.index ⟨8 * (i 0).val + 7, hlt⟩ (0 : Fin 3) * 1 ≤ (i 0).val ∧ (i 0).val < win0_2.index ⟨8 * (i 0).val + 7, hlt⟩ (0 : Fin 3) * 1 + 1; rw [e0']; omega
  | ⟨1, _⟩ => show win0_2.index ⟨8 * (i 0).val + 7, hlt⟩ (1 : Fin 3) * 1024 ≤ (i 1).val ∧ (i 1).val < win0_2.index ⟨8 * (i 0).val + 7, hlt⟩ (1 : Fin 3) * 1024 + 1024; rw [e1]; omega
  | ⟨2, _⟩ => show win0_2.index ⟨8 * (i 0).val + 7, hlt⟩ (2 : Fin 3) * 1024 ≤ (i 2).val ∧ (i 2).val < win0_2.index ⟨8 * (i 0).val + 7, hlt⟩ (2 : Fin 3) * 1024 + 1024; rw [e2]; omega

/-- THE RESULT ARRAY after the run is the specification of the two arguments. -/
theorem final (c : Dev nD) : (dats m 0 c).arrAt 2 cfg0.N = GemmSpec.G (argA m c) (argW m c) :=
  (dats m 0 c).arrAt_eq_of_cover 2 (GemmSpec.G (argA m c) (argW m c)) (flushed_eq m c) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v2) = GemmSpec.G (argA m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.KValue

end
-- ==== Proof.RefValue.lean ====
/-
  The reference computes the specification.

  The reference forms, per source s, the product of the whole input with the weights
  (p[s, M, n] = ∑ k, a[s, M, k] · w[s, n, k]), regroups the 8192 rows as 8 blocks of 1024
  (row M = 1024·d + r becomes (d, r)), and sums over s starting from zero.  Read at an index (d, r, n)
  this is 0 + ∑ s, ∑ k, a[s, 1024·d + r, k] · w[s, n, k]: the specification.  The regrouping is pure
  index arithmetic on the row-major position.
-/
import proofs.«102911_j15496242004357_2_alg».proof.Proof.Gen.ReferenceIdeal.Read
import proofs.«102911_j15496242004357_2_alg».proof.Proof.GemmSpec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- Through the regrouping and the reduction, the left operand is read at (s, 1024·d + r, k). -/
theorem left_index (i : S8x1024x1024.Idx) (s : Fin 8) (k : Fin 512) :
    lidx_main_v0 (idx_main_v1 (idx_main_v2 i s)) k
      = ix3 s (GemmSpec.rowOf (i 0).val (i 0).isLt ⟨(i 1).val, (i 1).isLt⟩) k := by
  have h0 : (i 0).val < 8 := (i 0).isLt
  have h1 : (i 1).val < 1024 := (i 1).isLt
  have h2 : (i 2).val < 1024 := (i 2).isLt
  have hs : s.val < 8 := s.isLt
  refine funext fun a => Fin.ext ?_
  match a with
  | ⟨0, _⟩ => show (((s.val * 8 + (i 0).val) * 1024 + (i 1).val) * 1024 + (i 2).val) / 8388608 = s.val; omega
  | ⟨1, _⟩ => show (((s.val * 8 + (i 0).val) * 1024 + (i 1).val) * 1024 + (i 2).val) / 1024 % 8192 = (i 0).val * 1024 + (i 1).val; omega
  | ⟨2, _⟩ => rfl

/-- … and the right operand at (s, n, k). -/
theorem right_index (i : S8x1024x1024.Idx) (s : Fin 8) (k : Fin 512) :
    ridx_main_v0 (idx_main_v1 (idx_main_v2 i s)) k = ix3 s (⟨(i 2).val, (i 2).isLt⟩ : Fin 1024) k := by
  have h0 : (i 0).val < 8 := (i 0).isLt
  have h1 : (i 1).val < 1024 := (i 1).isLt
  have h2 : (i 2).val < 1024 := (i 2).isLt
  have hs : s.val < 8 := s.isLt
  refine funext fun a => Fin.ext ?_
  match a with
  | ⟨0, _⟩ => show (((s.val * 8 + (i 0).val) * 1024 + (i 1).val) * 1024 + (i 2).val) / 8388608 = s.val; omega
  | ⟨1, _⟩ => show (((s.val * 8 + (i 0).val) * 1024 + (i 1).val) * 1024 + (i 2).val) % 1024 = (i 2).val; omega
  | ⟨2, _⟩ => rfl

/-- The reference's result is the specification of its two arguments. -/
theorem ref_is_spec (x0 : (⟨S8x8192x512, .f32⟩ : BufTy).Contents (Elt Ideal)) (x1 : (⟨S8x1024x512, .f32⟩ : BufTy).Contents (Elt Ideal)) :
    val_main_v2 (F := Ideal) x0 x1 = GemmSpec.G x0 x1 := by
  funext i
  rw [val_main_v2_apply, GemmSpec.G_apply, val_main_cst_apply]
  have z : (FloatOps.ofBits (F := Ideal) .f32 0x00000000#32) = (0 : EReal) := Ideal.ofBits_zero_f32
  rw [z, zero_add]
  refine Finset.sum_congr rfl fun s _ => ?_
  rw [val_main_v1_apply, val_main_v0_apply]
  refine Finset.sum_congr rfl fun k _ => ?_
  rw [left_index, right_index]

end Cert.ReferenceIdeal.RefValue

end
-- ==== Proof.lean ====
/-
  The proof of the claim: a persistent matrix product fused with a reduce-scatter, against its reference.

  The kernel runs a grid (dst, src) of 8 × 8 points.  At the point (d, s) it multiplies rows
  1024·d … 1024·d + 1023 of source s's input [8192, 512] by source s's weights [1024, 512] transposed
  (the weights are transposed and narrowed once, before the region, and stay resident), and accumulates
  the [1024, 1024] product into the output block d: stored at s = 0, added at s > 0, written back after
  s = 7.  The reference forms every source's whole product, regroups the rows into 8 blocks, and sums
  over the sources.

  Over the extended reals, where every change of float format is the identity, both compute
      out[d, r, n] = ∑ s, ∑ k, in[s, 1024·d + r, k] · w[s, n, k]:
  the kernel as the left-to-right sum of the eight per-source products, the reference as zero plus the
  sum over the source axis.  Only associativity of addition and 0 + x = x are used, so the finiteness of
  the inputs is never needed.

  The three frames: the two kernel programs by the body's two control cases (first source / later
  source) run once each and an induction over the grid points; the reference by its straight-line run.
  The idealization rewrote nothing, so the preservation claim is trivially true.
-/
import proofs.«102911_j15496242004357_2_alg».proof.Defs
import proofs.«102911_j15496242004357_2_alg».proof.Proof.Gen.Kernel
import proofs.«102911_j15496242004357_2_alg».proof.Proof.Gen.KernelIdeal
import proofs.«102911_j15496242004357_2_alg».proof.Proof.Gen.ReferenceIdeal
import proofs.«102911_j15496242004357_2_alg».proof.Proof.Gen.Pre_finite_inputs
import proofs.«102911_j15496242004357_2_alg».proof.Proof.Gen.ReferenceIdeal.Run
import proofs.«102911_j15496242004357_2_alg».proof.Proof.Gen.ReferenceIdeal.Read
import proofs.«102911_j15496242004357_2_alg».proof.Proof.WordFrame
import proofs.«102911_j15496242004357_2_alg».proof.Proof.IdealValue
import proofs.«102911_j15496242004357_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Body.frame m ρ

/-- So does its idealization. -/
theorem frame_ideal : Cert.frame_KernelIdeal := fun m ρ _ => Cert.KernelIdeal.Body.frame m ρ

/-- The reference is four host operations in a row: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification of those
    arguments in their result arrays. -/
theorem algebraic : Cert.algebraic_KernelIdeal_ReferenceIdeal := by
  intro m ρ m' ρ' _ hagree
  refine ⟨fun c => Cert.GemmSpec.G (Cert.KernelIdeal.KValue.argA m c) (Cert.KernelIdeal.KValue.argW m c),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v2_eq, Cert.ReferenceIdeal.RefValue.ref_is_spec, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
